-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S8x1x2048 : Shape := ⟨3, ![8, 1, 2048]⟩
abbrev S8x1x16384 : Shape := ⟨3, ![8, 1, 16384]⟩
abbrev S2048x3 : Shape := ⟨2, ![2048, 3]⟩
abbrev S1x1x2048 : Shape := ⟨3, ![1, 1, 2048]⟩
abbrev S3x2048 : Shape := ⟨2, ![3, 2048]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩
abbrev S16384 : Shape := ⟨1, ![16384]⟩
abbrev S8x16384 : Shape := ⟨2, ![8, 16384]⟩
abbrev S_ : Shape := ⟨0, ![]⟩

abbrev nBuf : Space → Nat
  | .hbm => 25
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S8x1x2048, .f32⟩
  | .hbm, ⟨3, _⟩ => ⟨S8x1x16384, .f32⟩
  | .hbm, ⟨4, _⟩ => ⟨S16384, .f32⟩
  | .hbm, ⟨5, _⟩ => ⟨S8x16384, .f32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S2048x3_S2048x3_0_0 : ∀ a, (![0, 0] : Fin 2 → Nat) a + S2048x3.size a ≤ S2048x3.size a
  h_S2048x3 : 0 < S2048x3.numel
  transposes_S2048x3_p1_0_S3x2048 : S2048x3.Transposes [1, 0] S3x2048
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S2048x1_S2048x2048 : S2048x1.Broadcasts S2048x2048
  broadcasts_S1x2048_S2048x2048 : S1x2048.Broadcasts S2048x2048
  reduces_S2048x2048_S2048 : S2048x2048.Reduces [1] S2048
  shapeCasts_S2048_S2048x1 : S2048.ShapeCasts S2048x1
  reduces_S2048x2048_S2048_2 : S2048x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  transposes_S2048x1_p1_0_S1x2048 : S2048x1.Transposes [1, 0] S1x2048
  shapeCasts_S1x2048_S1x1x2048 : S1x2048.ShapeCasts S1x1x2048
  shapeCasts_S1x1x2048_S1x1x2048 : S1x1x2048.ShapeCasts S1x1x2048
  shapeCasts_S8x1x2048_S16384 : S8x1x2048.ShapeCasts S16384
  shapeCasts_S8x1x16384_S8x16384 : S8x1x16384.ShapeCasts S8x16384
  reducesTo_S8x16384_S16384_d0 : S8x16384.ReducesTo [0] S16384
  h_S_ : 0 < S_.numel
  bcast_S_S16384 : S_.BroadcastsInDim S16384 (![] : Fin 0 → Fin S16384.rank)
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S16384x3.size a
  hwx0_1 : ∀ i : grid0.Coords, EltTy.bits .f32 = 32 ∨ (Rect.block (s := S16384x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x16384.size a
  hwx0_3 : ∀ i : grid0.Coords, EltTy.bits .f32 = 32 ∨ (Rect.block (s := S8x1x16384) S1x1x2048.size (cc0_transform_3 i) (hinb0_3 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 37
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Spec.lean ====
/-
  The mathematics shared by both programs, with no program in sight.

  Two point clouds x, y : 16384 × 3 give the squared distances D n m = Σ_d (x n d − y m d)².  The result of both
  programs is  mean_n √(max(min_m D n m, 0)) + mean_m √(max(min_n D n m, 0)).  One program takes the minima of the
  squared distances tile by tile and applies √(max(·, 0)) afterwards; the other expands the square as
  |x|² + |y|² − 2 x·y, applies √(max(·, 0)) to every entry and takes the minima of the results.  What joins them:
  the expansion of the square (valid for real entries), and that v ↦ √(max(v, 0)) is monotone on the extended reals
  and fixes +∞, so it commutes with a finite minimum taken from +∞.  A minimum is carried by its universal
  property: c ≤ min_i f i  iff  c ≤ f i for every i.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-! ## A finite minimum from +∞ -/

/-- The minimum of a finite family of extended reals, folded from `⊤`. -/
def minOver {ι : Type} [Fintype ι] (f : ι → EReal) : EReal := Finset.univ.fold min ⊤ f

/-- Its universal property. -/
theorem le_minOver {ι : Type} [Fintype ι] (f : ι → EReal) (c : EReal) : c ≤ minOver f ↔ ∀ i, c ≤ f i := by
  unfold minOver
  rw [Finset.le_fold_min]
  simp

/-- A value with the universal property is the minimum. -/
theorem eq_minOver {ι : Type} [Fintype ι] (f : ι → EReal) (v : EReal) (h : ∀ c, c ≤ v ↔ ∀ i, c ≤ f i) :
    v = minOver f :=
  eq_of_forall_le_iff fun c => (h c).trans (le_minOver f c).symm

/-- A fold of `min` from any start, by its universal property. -/
theorem le_fold_min_univ {ι : Type} [Fintype ι] (f : ι → EReal) (b c : EReal) :
    c ≤ Finset.univ.fold min b f ↔ c ≤ b ∧ ∀ i, c ≤ f i := by
  rw [Finset.le_fold_min]
  simp

/-! ## The clamped square root -/

/-- `v ↦ √(max(v, 0))` on the extended reals. -/
def rootClamp (v : EReal) : EReal := Ideal.sqrt (max v 0)

/-- The extended square root is monotone (`⊥` below zero, `√` on the non-negative reals, `⊤` at `⊤`). -/
theorem sqrt_mono : Monotone Ideal.sqrt := by
  intro a b hab
  induction a using EReal.rec with
  | bot => exact bot_le
  | top =>
    have hb : b = ⊤ := top_le_iff.mp hab
    subst hb
    exact le_rfl
  | coe r =>
    induction b using EReal.rec with
    | bot => exact absurd hab (by simp)
    | top => exact le_top
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

theorem rootClamp_mono : Monotone rootClamp := fun _ _ h => sqrt_mono (max_le_max h le_rfl)

theorem rootClamp_top : rootClamp ⊤ = ⊤ := by
  unfold rootClamp
  rw [max_eq_left le_top]
  rfl

/-- The clamped root commutes with a finite minimum from `⊤`. -/
theorem rootClamp_minOver {ι : Type} [Fintype ι] (f : ι → EReal) :
    rootClamp (minOver f) = minOver fun i => rootClamp (f i) := by
  unfold minOver
  rw [← Finset.fold_hom (op := min) (op' := min) (m := rootClamp) (fun x y => rootClamp_mono.map_min), rootClamp_top]

/-! ## The squared distance, in both spellings -/

/-- The sum of the three squared differences, associated as the tiles add them. -/
def dist2 (a0 a1 a2 b0 b1 b2 : EReal) : EReal :=
  (a0 - b0) * (a0 - b0) + (a1 - b1) * (a1 - b1) + (a2 - b2) * (a2 - b2)

/-- The expanded square: `(z + |a|²) + (z + |b|²) − t · (a·b)`, with the sums' starting value `z` and the factor `t`. -/
def dist2X (z t a0 a1 a2 b0 b1 b2 : EReal) : EReal :=
  (z + (a0 * a0 + a1 * a1 + a2 * a2)) + (z + (b0 * b0 + b1 * b1 + b2 * b2)) - t * (a0 * b0 + a1 * b1 + a2 * b2)

/-- On real entries the expansion is the sum of squared differences. -/
theorem dist2X_eq (a0 a1 a2 b0 b1 b2 : ℝ) :
    dist2X 0 ((2 : ℝ) : EReal) a0 a1 a2 b0 b1 b2 = dist2 a0 a1 a2 b0 b1 b2 := by
  unfold dist2X dist2
  norm_cast
  ring_nf

/-! ## The constants -/

theorem ofBits_top : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee, -EReal.coe_mul]; norm_num

/-! ## Rows as tiles -/

/-- Row `2048 · i + r` of 16384. -/
def glob (i : Fin 8) (r : Fin 2048) : Fin 16384 := ⟨2048 * i.val + r.val, by have := i.isLt; have := r.isLt; omega⟩

/-- Every row is some row of some tile. -/
theorem forall_glob (P : Fin 16384 → Prop) : (∀ i r, P (glob i r)) ↔ ∀ n, P n := by
  constructor
  · intro h n
    have hn := n.isLt
    have := h ⟨n.val / 2048, by omega⟩ ⟨n.val % 2048, Nat.mod_lt _ (by norm_num)⟩
    have e : glob ⟨n.val / 2048, by omega⟩ ⟨n.val % 2048, Nat.mod_lt _ (by norm_num)⟩ = n :=
      Fin.ext (by show 2048 * (n.val / 2048) + n.val % 2048 = n.val; omega)
    rwa [e] at this
  · intro h i r
    exact h _

/-! ## The two clouds' squared distances and their minima -/

abbrev Pts : Type := (⟨2, ![16384, 3]⟩ : Shape).Idx → EReal

/-- `D n m`: the squared distance between row `n` of `x` and row `m` of `y`. -/
def D (x y : Pts) (n m : Fin 16384) : EReal :=
  dist2 (x (ix2 n (0 : Fin 3))) (x (ix2 n (1 : Fin 3))) (x (ix2 n (2 : Fin 3)))
    (y (ix2 m (0 : Fin 3))) (y (ix2 m (1 : Fin 3))) (y (ix2 m (2 : Fin 3)))

/-- The expanded spelling of the same. -/
def DX (z t : EReal) (x y : Pts) (n m : Fin 16384) : EReal :=
  dist2X z t (x (ix2 n (0 : Fin 3))) (x (ix2 n (1 : Fin 3))) (x (ix2 n (2 : Fin 3)))
    (y (ix2 m (0 : Fin 3))) (y (ix2 m (1 : Fin 3))) (y (ix2 m (2 : Fin 3)))

/-- Every entry a real number. -/
def AllReal (x : Pts) : Prop := ∀ i, ∃ r : ℝ, x i = (r : EReal)

theorem DX_eq (x y : Pts) (hx : AllReal x) (hy : AllReal y) (n m : Fin 16384) :
    DX 0 ((2 : ℝ) : EReal) x y n m = D x y n m := by
  unfold DX D
  obtain ⟨a0, e0⟩ := hx (ix2 n (0 : Fin 3))
  obtain ⟨a1, e1⟩ := hx (ix2 n (1 : Fin 3))
  obtain ⟨a2, e2⟩ := hx (ix2 n (2 : Fin 3))
  obtain ⟨b0, f0⟩ := hy (ix2 m (0 : Fin 3))
  obtain ⟨b1, f1⟩ := hy (ix2 m (1 : Fin 3))
  obtain ⟨b2, f2⟩ := hy (ix2 m (2 : Fin 3))
  rw [e0, e1, e2, f0, f1, f2]
  exact dist2X_eq a0 a1 a2 b0 b1 b2

/-- The nearest squared distance from row `n` of `x` to `y`, and from row `m` of `y` to `x`. -/
def fwdSq (x y : Pts) (n : Fin 16384) : EReal := minOver fun m => D x y n m
def bwdSq (x y : Pts) (m : Fin 16384) : EReal := minOver fun n => D x y n m

end Cert.Chamfer

end
-- ==== Proof.Mean.lean ====
/-
  The last stretch both programs share: the two vectors of 16384 nearest distances are each summed from zero and
  divided by 16384, and the two means are added.
-/
import proofs.«112099_j2241972929056_2_alg».proof.Proof.Spec
import Idealize.ShloMosaic.PureOps

noncomputable section

namespace Cert.Chamfer

open Idealize.ShloMosaic

abbrev V16k : Shape := ⟨1, ![16384]⟩
abbrev S0 : Shape := ⟨0, ![]⟩

/-- `(0 + Σ a) / 16384 + (0 + Σ b) / 16384`, in the host's own operations. -/
def meanPair (hr : V16k.ReducesTo [0] S0) (h0 : 0 < S0.numel) (a b : V16k.Idx → Ideal .f32) : S0.Idx → Ideal .f32 :=
  addf (Host.divf (Host.reduceAdd (F := Ideal) a (constant (F := Ideal) S0 .f32 0x00000000#32) hr h0)
      (constant (F := Ideal) S0 .f32 0x46800000#32))
    (Host.divf (Host.reduceAdd (F := Ideal) b (constant (F := Ideal) S0 .f32 0x00000000#32) hr h0)
      (constant (F := Ideal) S0 .f32 0x46800000#32))

/-- The chamfer value of two clouds: the mean nearest distance from x to y plus the mean nearest distance from y to x. -/
def chamfer (hr : V16k.ReducesTo [0] S0) (h0 : 0 < S0.numel) (x y : Pts) : S0.Idx → Ideal .f32 :=
  meanPair hr h0 (fun j => rootClamp (fwdSq x y (j 0))) (fun j => rootClamp (bwdSq x y (j 0)))

end Cert.Chamfer

end
-- ==== Proof.Pieces.lean ====
/-
  What one grid step leaves in the two output tiles, read off the body's stores.

  A step loads a tile of 2048 rows of x and a tile of 2048 rows of y.  The first output tile is a running row
  minimum: the step stores min(previous contents, row minima of this pair of tiles); on the first step of a sweep
  the previous contents are first overwritten by +∞.  The second output tile is the column minima of this pair of
  tiles, stored outright.  Every store covers its whole tile, so each tile ends holding exactly the value of its
  last store.
-/
import proofs.«112099_j2241972929056_2_alg».proof.Defs
import proofs.«112099_j2241972929056_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Chamfer.Kern

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a sweep: the running row minimum meets this pair of tiles' row minima. -/
theorem out_B_2 (c : Dev nD) (i : grid0.Coords) (a2 : Memref sig .tc .vmem S2048x3 .f32) (h2 : a2.IsWhole)
    (a3 : Memref sig .tc .vmem S2048x3 .f32) (h3 : a3.IsWhole) (a4 : Memref sig .tc .vmem S1x1x2048 .f32) (h4 : a4.IsWhole)
    (a5 : Memref sig .tc .vmem S1x1x2048 .f32) (h5 : a5.IsWhole) (hc : ¬cond0_0 i)
    (x0 x1 : Vec F S2048x3 .f32) (xo : Vec F S1x1x2048 .f32) :
    out0_B_2 c i a2 h2 a3 h3 a4 h4 a5 h5 hc x0 x1 xo = k0_pay3 x0 x1 xo := by
  unfold out0_B_2
  rw [View.read_writes_eq_canon _ _ _ (cover0_B_2 c i a2 h2 a3 h3 a4 h4 a5 h5 hc x0 x1 xo)]
  unfold kernelRun0_B
  dsimp only
  rw [View.canon_unit_zero hz3]
  simp only [View.readAt_eq_ld, h2.read_unread, h3.read_unread, h4.read_unread, View.ld_unit_zero (S := S2048x3) hz2,
    View.ld_unit_zero (S := S1x1x2048) hz3]

/-- The first step of a sweep: the same, from the +∞ tile just stored. -/
theorem out_A_2 (c : Dev nD) (i : grid0.Coords) (a2 : Memref sig .tc .vmem S2048x3 .f32) (h2 : a2.IsWhole)
    (a3 : Memref sig .tc .vmem S2048x3 .f32) (h3 : a3.IsWhole) (a4 : Memref sig .tc .vmem S1x1x2048 .f32) (h4 : a4.IsWhole)
    (a5 : Memref sig .tc .vmem S1x1x2048 .f32) (h5 : a5.IsWhole) (hc : cond0_0 i)
    (x0 x1 : Vec F S2048x3 .f32) :
    out0_A_2 c i a2 h2 a3 h3 a4 h4 a5 h5 hc x0 x1 = k0_pay3 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, View.ld_unit_zero (S := S2048x3) hz2]

/-- The column minima of this pair of tiles, on a later step … -/
theorem out_B_3 (c : Dev nD) (i : grid0.Coords) (a2 : Memref sig .tc .vmem S2048x3 .f32) (h2 : a2.IsWhole)
    (a3 : Memref sig .tc .vmem S2048x3 .f32) (h3 : a3.IsWhole) (a4 : Memref sig .tc .vmem S1x1x2048 .f32) (h4 : a4.IsWhole)
    (a5 : Memref sig .tc .vmem S1x1x2048 .f32) (h5 : a5.IsWhole) (hc : ¬cond0_0 i)
    (x0 x1 : Vec F S2048x3 .f32) (xo : Vec F S1x1x2048 .f32) :
    out0_B_3 c i a2 h2 a3 h3 a4 h4 a5 h5 hc x0 x1 xo = k0_pay4 x0 x1 := by
  unfold out0_B_3
  rw [View.read_writes_eq_canon _ _ _ (cover0_B_3 c i a2 h2 a3 h3 a4 h4 a5 h5 hc x0 x1 xo)]
  unfold kernelRun0_B
  dsimp only
  rw [View.canon_unit_zero hz3]
  simp only [View.readAt_eq_ld, h2.read_unread, h3.read_unread, View.ld_unit_zero (S := S2048x3) hz2]

/-- … and on the first step of a sweep. -/
theorem out_A_3 (c : Dev nD) (i : grid0.Coords) (a2 : Memref sig .tc .vmem S2048x3 .f32) (h2 : a2.IsWhole)
    (a3 : Memref sig .tc .vmem S2048x3 .f32) (h3 : a3.IsWhole) (a4 : Memref sig .tc .vmem S1x1x2048 .f32) (h4 : a4.IsWhole)
    (a5 : Memref sig .tc .vmem S1x1x2048 .f32) (h5 : a5.IsWhole) (hc : cond0_0 i)
    (x0 x1 : Vec F S2048x3 .f32) :
    out0_A_3 c i a2 h2 a3 h3 a4 h4 a5 h5 hc x0 x1 = k0_pay4 x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S2048x3) hz2]

end Cert.Chamfer.Kern

end
-- ==== Proof.Payload.lean ====
/-
  The step's arithmetic, entry by entry, on the extended reals.

  For a tile of rows v0 of x and a tile of rows v1 of y, entry (r, c) of the tile of squared distances is
  Σ_d (v0 r d − v1 c d)².  The row minima (over c) and the column minima (over r) are minima folded from +∞, so each is
  the finite minimum of its row or column; the running row minimum is the meet of the previous contents with it.
-/
import proofs.«112099_j2241972929056_2_alg».proof.Defs
import proofs.«112099_j2241972929056_2_alg».proof.Proof.Gen.KernelIdeal.Frame
import proofs.«112099_j2241972929056_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open Idealize.ShloMosaic Idealize.ShloMosaic.TcCoe Idealize.SL.Sem
open Idealize.ShloMosaic.Pipeline (Dat)

namespace Cert.Chamfer.Kern

open Cert.KernelIdeal Cert.KernelIdeal.Gen

open Idealize.ShloMosaic.ValueIdx Cert.Chamfer

section Layout
variable {α : Type}

/-- A column `[2048, 1]` spread over 2048 columns reads, at `(p, c)`, the column at `p`. -/
theorem broadcastTo_col_apply (v : (⟨2, ![2048, 1]⟩ : Shape).Idx → α)
    (h : (⟨2, ![2048, 1]⟩ : Shape).Broadcasts ⟨2, ![2048, 2048]⟩) (p c : Fin 2048) :
    broadcastTo ⟨2, ![2048, 2048]⟩ v h (ix2 p c) = v (ix2 p (0 : Fin 1)) := by
  refine broadcastTo_apply v h (ix2 p c) (ix2 p (0 : Fin 1)) fun ax => ?_
  match ax with
  | ⟨0, _⟩ =>
    show p.val = if (2048 : ℕ) = 1 then 0 else p.val
    rw [if_neg (by decide)]
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

end Layout

/-- Entry `(r, c)` of the tile of squared distances. -/
theorem pay1_apply (v0 v1 : Vec Ideal S2048x3 .f32) (r cc : Fin 2048) :
    k0_pay1 (F := Ideal) v0 v1 (ix2 r cc)
      = dist2 (v0 (ix2 r (0 : Fin 3))) (v0 (ix2 r (1 : Fin 3))) (v0 (ix2 r (2 : Fin 3)))
          (v1 (ix2 cc (0 : Fin 3))) (v1 (ix2 cc (1 : Fin 3))) (v1 (ix2 cc (2 : Fin 3))) := by
  unfold k0_pay1 dist2
  simp only [addf_apply, mulf_apply, subf_apply]
  rw [broadcastTo_col_apply, broadcastTo_col_apply, broadcastTo_col_apply,
    broadcastTo_1b_ab_apply, broadcastTo_1b_ab_apply, broadcastTo_1b_ab_apply,
    slice2_axis1_apply 0 v0 _ r (0 : Fin 1) (0 : Fin 3) rfl, slice2_axis1_apply 1 v0 _ r (0 : Fin 1) (1 : Fin 3) rfl,
    slice2_axis1_apply 2 v0 _ r (0 : Fin 1) (2 : Fin 3) rfl,
    slice2_axis0_apply 0 _ _ (0 : Fin 1) cc (0 : Fin 3) rfl, slice2_axis0_apply 1 _ _ (0 : Fin 1) cc (1 : Fin 3) rfl,
    slice2_axis0_apply 2 _ _ (0 : Fin 1) cc (2 : Fin 3) rfl,
    transpose_ix2_apply, transpose_ix2_apply, transpose_ix2_apply]

/-- A minimum over the columns of a `[2048, 2048]` tile, folded from +∞, at row `r`. -/
theorem rowmin_apply (src : FVec Ideal S2048x2048 .f32) (h : S2048x2048.Reduces [1] S2048) (hφ : FKind.Formats .f32)
    (hacc : (0x7F800000#32 : BitVec 32) = 0x7F800000#32) (r : Fin 2048) :
    multiReduction .minimumf [1] S2048 src 0x7F800000#32 h hφ hacc (ix1 r) = minOver fun cc : Fin 2048 => src (ix2 r cc) := by
  refine (multiReduction_minimumf_eq_fold src _ h hφ hacc (ix1 r)).trans ?_
  rw [h.fold_filter_drop_single]
  unfold minOver
  show Finset.fold min (Ideal.ofBits .f32 0x7F800000#32) (src ∘ h.lift (ix1 r)) (Finset.univ : Finset (Fin 2048))
    = Finset.fold min ⊤ (fun cc => src (ix2 r cc)) Finset.univ
  rw [ofBits_top]
  congr 1
  funext k
  exact congrArg src (funext fun a => Fin.ext (by match a with | ⟨0, _⟩ => rfl | ⟨1, _⟩ => rfl))

/-- A minimum over the rows of the tile, folded from +∞, at column `c`. -/
theorem colmin_apply (src : FVec Ideal S2048x2048 .f32) (h : S2048x2048.Reduces [0] S2048) (hφ : FKind.Formats .f32)
    (hacc : (0x7F800000#32 : BitVec 32) = 0x7F800000#32) (cc : Fin 2048) :
    multiReduction .minimumf [0] S2048 src 0x7F800000#32 h hφ hacc (ix1 cc) = minOver fun r : Fin 2048 => src (ix2 r cc) := by
  refine (multiReduction_minimumf_eq_fold src _ h hφ hacc (ix1 cc)).trans ?_
  rw [h.fold_filter_drop_single]
  unfold minOver
  show Finset.fold min (Ideal.ofBits .f32 0x7F800000#32) (src ∘ h.lift (ix1 cc)) (Finset.univ : Finset (Fin 2048))
    = Finset.fold min ⊤ (fun r => src (ix2 r cc)) Finset.univ
  rw [ofBits_top]
  congr 1
  funext k
  exact congrArg src (funext fun a => Fin.ext (by match a with | ⟨0, _⟩ => rfl | ⟨1, _⟩ => rfl))

/-- The +∞ tile. -/
theorem pay2_apply (j : S1x1x2048.Idx) : k0_pay2 (F := Ideal) j = ⊤ := by
  unfold k0_pay2
  show Ideal.ofBits .f32 0x7F800000#32 = ⊤
  exact ofBits_top

/-- The running row minimum after the step: the previous contents met with the row's minimum over this tile of `y`. -/
theorem pay3_apply (v0 v1 : Vec Ideal S2048x3 .f32) (v32 : Vec Ideal S1x1x2048 .f32) (u w : Fin 1) (r : Fin 2048) :
    k0_pay3 (F := Ideal) v0 v1 v32 (ix3 u w r)
      = min (v32 (ix3 u w r)) (minOver fun cc : Fin 2048 => k0_pay1 (F := Ideal) v0 v1 (ix2 r cc)) := by
  unfold k0_pay3
  simp only [minimumf_apply]
  rw [shapeCast_self, shapeCast_ab_1ab_apply, transpose_ix2_apply, shapeCast_a_a1_apply, rowmin_apply]

/-- The column minima of the step. -/
theorem pay4_apply (v0 v1 : Vec Ideal S2048x3 .f32) (u w : Fin 1) (cc : Fin 2048) :
    k0_pay4 (F := Ideal) v0 v1 (ix3 u w cc) = minOver fun r : Fin 2048 => k0_pay1 (F := Ideal) v0 v1 (ix2 r cc) := by
  unfold k0_pay4
  dsimp only
  rw [shapeCast_ab_1ab_apply, shapeCast_a_1a_apply, colmin_apply]

end Cert.Chamfer.Kern

end
-- ==== Proof.Accum.lean ====
/-
  What the two output tiles hold after each grid step, in terms of the two clouds.

  Step t = 8 i + j pairs tile i of x (rows 2048 i …) with tile j of y (rows 2048 j …).  After it the second output
  tile holds, at column c, the minimum over the rows r of tile i of D (2048 i + r) (2048 j + c); the first output tile
  holds the running row minimum of the sweep over j: a bound c₀ lies below its entry r iff it lies below every
  D (2048 i + r) (2048 j' + c) with j' ≤ j.  The first statement is read off one step; the second is an induction along
  the sweep, by the universal property of the minimum.
-/
import proofs.«112099_j2241972929056_2_alg».proof.Defs
import proofs.«112099_j2241972929056_2_alg».proof.Proof.Gen.KernelIdeal.Frame
import proofs.«112099_j2241972929056_2_alg».proof.Proof.Spec
import proofs.«112099_j2241972929056_2_alg».proof.Proof.Pieces
import proofs.«112099_j2241972929056_2_alg».proof.Proof.Payload

noncomputable section

open Idealize.ShloMosaic Idealize.ShloMosaic.TcCoe Idealize.SL.Sem
open Idealize.ShloMosaic.Pipeline (Dat)

namespace Cert.Chamfer.Kern

open Cert.KernelIdeal Cert.KernelIdeal.Gen

open Idealize.ShloMosaic.ValueIdx Cert.Chamfer

variable (m : (ℓ : Loc nD τ sig) → Buf (Elt Ideal) ℓ) (c : Dev nD)

/-- The two clouds as the region finds them. -/
abbrev X : Pts := V m c main_arg0
abbrev Y : Pts := V m c main_arg1

/-- The tile of x and the tile of y that step `n` pairs. -/
def tileI (n : ℕ) : Fin 8 := ⟨n / 8 % 8, Nat.mod_lt _ (by norm_num)⟩
def tileJ (n : ℕ) : Fin 8 := ⟨n % 8, Nat.mod_lt _ (by norm_num)⟩

/-- The block indices of the two input windows, decided over the grid. -/
theorem idx_in : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- The tile of x a step loads: rows `2048 · (t / 8) + r`. -/
theorem iblk0_eq (t : Fin cfg0.N) :
    (iblk m c 0 t : Vec Ideal S2048x3 .f32) = fun j => X m c (ix2 (glob (tileI t.val) ⟨(j 0).val, (j 0).isLt⟩) ⟨(j 1).val, (j 1).isLt⟩) := by
  have hN : t.val < 64 := lt_of_lt_of_eq t.isLt (show cfg0.N = 64 from N_0)
  obtain ⟨e0, e1, -, -⟩ := idx_in t
  funext j
  unfold iblk
  rw [View.read_apply]
  show V m c main_arg0 _ = V m c main_arg0 _
  congr 1
  funext a
  apply Fin.ext
  have h0 : (j 0).val < 2048 := (j 0).isLt
  have h1 : (j 1).val < 3 := (j 1).isLt
  match a with
  | ⟨0, _⟩ =>
    show win0_0.index t (0 : Fin 2) * 2048 + 1 * (j 0).val = 2048 * (t.val / 8 % 8) + (j 0).val
    rw [e0]; omega
  | ⟨1, _⟩ =>
    show win0_0.index t (1 : Fin 2) * 3 + 1 * (j 1).val = (j 1).val
    rw [e1]; omega

/-- The tile of y a step loads: rows `2048 · (t % 8) + c`. -/
theorem iblk1_eq (t : Fin cfg0.N) :
    (iblk m c 1 t : Vec Ideal S2048x3 .f32) = fun j => Y m c (ix2 (glob (tileJ t.val) ⟨(j 0).val, (j 0).isLt⟩) ⟨(j 1).val, (j 1).isLt⟩) := by
  obtain ⟨-, -, e0, e1⟩ := idx_in t
  funext j
  unfold iblk
  rw [View.read_apply]
  show V m c main_arg1 _ = V m c main_arg1 _
  congr 1
  funext a
  apply Fin.ext
  have h0 : (j 0).val < 2048 := (j 0).isLt
  have h1 : (j 1).val < 3 := (j 1).isLt
  match a with
  | ⟨0, _⟩ =>
    show win0_1.index t (0 : Fin 2) * 2048 + 1 * (j 0).val = 2048 * (t.val % 8) + (j 0).val
    rw [e0]; omega
  | ⟨1, _⟩ =>
    show win0_1.index t (1 : Fin 2) * 3 + 1 * (j 1).val = (j 1).val
    rw [e1]; omega

/-- Entry `(r, c)` of the step's tile of squared distances is `D` at the two global rows. -/
theorem pay1_point (t : Fin cfg0.N) (r cc : Fin 2048) :
    k0_pay1 (F := Ideal) (iblk m c 0 t) (iblk m c 1 t) (ix2 r cc)
      = D (X m c) (Y m c) (glob (tileI t.val) r) (glob (tileJ t.val) cc) := by
  refine (pay1_apply (iblk m c 0 t) (iblk m c 1 t) r cc).trans ?_
  have e0 := iblk0_eq m c t
  have e1 := iblk1_eq m c t
  unfold D
  rw [congrFun e0 (ix2 r (0 : Fin 3)), congrFun e0 (ix2 r (1 : Fin 3)), congrFun e0 (ix2 r (2 : Fin 3)),
    congrFun e1 (ix2 cc (0 : Fin 3)), congrFun e1 (ix2 cc (1 : Fin 3)), congrFun e1 (ix2 cc (2 : Fin 3))]
  rfl

/-- The column minima after step `t`. -/
theorem snd_eq (t : Fin cfg0.N) (cc : Fin 2048) :
    (outsAt0 m c t.val t.isLt).2 (ix3 (0 : Fin 1) (0 : Fin 1) cc)
      = minOver fun r : Fin 2048 => D (X m c) (Y m c) (glob (tileI t.val) r) (glob (tileJ t.val) cc) := by
  have key : k0_pay4 (F := Ideal) (iblk m c 0 t) (iblk m c 1 t) (ix3 (0 : Fin 1) (0 : Fin 1) cc)
      = minOver fun r : Fin 2048 => D (X m c) (Y m c) (glob (tileI t.val) r) (glob (tileJ t.val) cc) :=
    (pay4_apply (iblk m c 0 t) (iblk m c 1 t) 0 0 cc).trans (congrArg minOver (funext fun r => pay1_point m c t r cc))
  by_cases h0 : t.val % 8 = 0
  · rw [outsAt0_A m c t h0]
    dsimp only
    rw [out_A_3 (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)]
    exact key
  · rw [outsAt0_B m c t h0]
    dsimp only
    rw [out_B_3 (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t)
      (outsAt0 m c (t.val - 1) (Nat.lt_of_le_of_lt (Nat.sub_le _ _) t.isLt)).1]
    exact key

/-- The running row minimum at the first step of a sweep: from +∞. -/
theorem fst_A (t : Fin cfg0.N) (h0 : t.val % 8 = 0) (r : Fin 2048) :
    (outsAt0 m c t.val t.isLt).1 (ix3 (0 : Fin 1) (0 : Fin 1) r)
      = min ⊤ (minOver fun cc : Fin 2048 => D (X m c) (Y m c) (glob (tileI t.val) r) (glob (tileJ t.val) cc)) := by
  rw [outsAt0_A m c t h0]
  dsimp only
  rw [out_A_2 (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t)]
  refine (pay3_apply (iblk m c 0 t) (iblk m c 1 t) (k0_pay2 (F := Ideal)) 0 0 r).trans ?_
  rw [pay2_apply]
  exact congrArg (fun f => min ⊤ (minOver f)) (funext fun cc => pay1_point m c t r cc)

/-- … and at a later step: from what the step before left. -/
theorem fst_B (t : Fin cfg0.N) (h0 : ¬t.val % 8 = 0) (r : Fin 2048) :
    (outsAt0 m c t.val t.isLt).1 (ix3 (0 : Fin 1) (0 : Fin 1) r)
      = min ((outsAt0 m c (t.val - 1) (Nat.lt_of_le_of_lt (Nat.sub_le _ _) t.isLt)).1 (ix3 (0 : Fin 1) (0 : Fin 1) r))
          (minOver fun cc : Fin 2048 => D (X m c) (Y m c) (glob (tileI t.val) r) (glob (tileJ t.val) cc)) := by
  rw [outsAt0_B m c t h0]
  dsimp only
  rw [out_B_2 (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t)
    (outsAt0 m c (t.val - 1) (Nat.lt_of_le_of_lt (Nat.sub_le _ _) t.isLt)).1]
  refine (pay3_apply (iblk m c 0 t) (iblk m c 1 t) _ 0 0 r).trans ?_
  exact congrArg (fun f => min _ (minOver f)) (funext fun cc => pay1_point m c t r cc)

/-- THE SWEEP'S INVARIANT: after step `n` the running minimum at row `r` is the minimum of `D` over the tiles of `y`
    met so far in this sweep. -/
theorem acc_le : ∀ (n : ℕ) (hn : n < cfg0.N) (r : Fin 2048) (b : EReal),
    b ≤ (outsAt0 m c n hn).1 (ix3 (0 : Fin 1) (0 : Fin 1) r)
      ↔ ∀ j' : Fin 8, j'.val ≤ n % 8 → ∀ cc : Fin 2048, b ≤ D (X m c) (Y m c) (glob (tileI n) r) (glob j' cc)
  | n, hn, r, b => by
    by_cases h0 : n % 8 = 0
    · rw [fst_A m c ⟨n, hn⟩ h0 r, le_min_iff, le_minOver]
      constructor
      · rintro ⟨-, h⟩ j' hj' cc
        have e : j' = tileJ n := Fin.ext (by show j'.val = n % 8; omega)
        rw [e]; exact h cc
      · intro h
        exact ⟨le_top, fun cc => h (tileJ n) (le_of_eq rfl) cc⟩
    · have hpos : 0 < n := Nat.pos_of_ne_zero (fun e => h0 (by rw [e]))
      have ih := acc_le (n - 1) (Nat.lt_of_le_of_lt (Nat.sub_le _ _) hn) r b
      rw [fst_B m c ⟨n, hn⟩ h0 r, le_min_iff, le_minOver]
      show (b ≤ (outsAt0 m c (n - 1) _).1 (ix3 (0 : Fin 1) (0 : Fin 1) r) ∧ _) ↔ _
      rw [ih]
      have eI : tileI (n - 1) = tileI n := Fin.ext (by show (n - 1) / 8 % 8 = n / 8 % 8; omega)
      rw [eI]
      constructor
      · rintro ⟨h1, h2⟩ j' hj' cc
        by_cases hlt : j'.val ≤ (n - 1) % 8
        · exact h1 j' hlt cc
        · have e : j' = tileJ n := Fin.ext (by show j'.val = n % 8; omega)
          rw [e]; exact h2 cc
      · intro h
        exact ⟨fun j' hj' cc => h j' (by omega) cc, fun cc => h (tileJ n) (le_of_eq rfl) cc⟩
  termination_by n => n
  decreasing_by omega

/-- At the last step of a sweep the running minimum is the minimum over all of `y`. -/
theorem fst_last (t : Fin cfg0.N) (h7 : t.val % 8 = 7) (r : Fin 2048) :
    (outsAt0 m c t.val t.isLt).1 (ix3 (0 : Fin 1) (0 : Fin 1) r) = fwdSq (X m c) (Y m c) (glob (tileI t.val) r) := by
  unfold fwdSq
  refine eq_minOver _ _ fun b => ?_
  rw [acc_le m c t.val t.isLt r b, ← forall_glob]
  constructor
  · intro h j' cc
    exact h j' (by have := j'.isLt; omega) cc
  · intro h j' _ cc
    exact h j' cc

end Cert.Chamfer.Kern

end
-- ==== Proof.Arrays.lean ====
/-
  The two arrays the tiles are written back to, each as one function of the two clouds.

  The first array [8, 1, 2048] receives tile i at the end of sweep i: entry (i, 0, r) is the minimum over all rows m of
  y of D (2048 i + r) m.  The second array [8, 1, 16384] receives a tile at every step: entry (i, 0, 2048 j + c) is the
  minimum over the rows r of tile i of x of D (2048 i + r) (2048 j + c).  In both the written-back tiles are disjoint
  and fill the array, so the array ends holding that function everywhere.
-/
import proofs.«112099_j2241972929056_2_alg».proof.Defs
import proofs.«112099_j2241972929056_2_alg».proof.Proof.Gen.KernelIdeal.Frame
import proofs.«112099_j2241972929056_2_alg».proof.Proof.Spec
import proofs.«112099_j2241972929056_2_alg».proof.Proof.Accum
import Idealize.ShloMosaic.Lib.Pipeline.Value

noncomputable section

open Idealize.ShloMosaic Idealize.ShloMosaic.TcCoe Idealize.SL.Sem
open Idealize.ShloMosaic.Pipeline (Dat)

namespace Cert.Chamfer.Kern

open Cert.KernelIdeal Cert.KernelIdeal.Gen

open Idealize.ShloMosaic.ValueIdx Cert.Chamfer

variable (m : (ℓ : Loc nD τ sig) → Buf (Elt Ideal) ℓ) (c : Dev nD)

/-- The block indices of the two output windows, decided over the grid. -/
theorem idx_out : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = t.val % 8 :=
  (by decide +kernel : ∀ t : Fin grid0.N, _)

/-! ## The array of row minima -/

/-- Entry `(i, 0, r)`: the nearest squared distance from row `2048 i + r` of x to y. -/
def G2 : S8x1x2048.Idx → EReal := fun y =>
  fwdSq (X m c) (Y m c) (glob ⟨(y 0).val, (y 0).isLt⟩ ⟨(y 2).val, (y 2).isLt⟩)

set_option maxRecDepth 200000 in
/-- What the last step of a sweep writes back is the sweep's tile of `G2`. -/
theorem flushed2_eq (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : t.val < 64 := lt_of_lt_of_eq t.isLt (show cfg0.N = 64 from N_0)
  obtain ⟨e0, e1, e2, -, -, -⟩ := idx_out t
  show (cfg0.win 2).cut (grid0.coords t) ((dats m 0 c).after 2 t) = _
  rw [after0_2]
  funext j
  rw [View.read_apply]
  show (outsAt0 m c t.val t.isLt).1 j = G2 m c (((cfg0.win 2).blk t).view.emb j)
  obtain ⟨u, w, r, rfl⟩ : ∃ (u w : Fin 1) (r : Fin 2048), j = ix3 u w r := ⟨j 0, j 1, j 2, eq_ix3 j⟩
  obtain rfl : u = 0 := Subsingleton.elim _ _
  obtain rfl : w = 0 := Subsingleton.elim _ _
  rw [fst_last m c t h7 r]
  unfold G2
  refine congrArg (fwdSq (X m c) (Y m c)) (Fin.ext ?_)
  show 2048 * (t.val / 8 % 8) + r.val
    = 2048 * (win0_2.index t (0 : Fin 3) * 1 + 1 * 0) + (win0_2.index t (2 : Fin 3) * 2048 + 1 * r.val)
  rw [e0, e2]; omega

/-- An index of the array is in step `t`'s tile iff each coordinate is in the tile's range on its axis. -/
theorem mem_blk2 (t : Fin cfg0.N) (i : S8x1x2048.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v0_0).slice (win0_2.rect t)).set ↔ _
  rw [View.set_slice_whole, Rect.mem_set_unit]
  exact Iff.rfl

/-- Row `i` of the array is written back at the end of sweep `i`. -/
theorem cover2 (i : S8x1x2048.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 2048 := (i 2).isLt
  have hlt : 8 * (i 0).val + 7 < cfg0.N := by rw [show cfg0.N = 64 from N_0]; omega
  obtain ⟨e0, e1, e2, -, -, -⟩ := idx_out ⟨8 * (i 0).val + 7, hlt⟩
  have e0' : win0_2.index ⟨8 * (i 0).val + 7, hlt⟩ (0 : Fin 3) = (8 * (i 0).val + 7) / 8 := e0
  refine ⟨⟨8 * (i 0).val + 7, hlt⟩, (flush0_2 _).mpr (by show (8 * (i 0).val + 7) % 8 = 7; omega), ?_⟩
  rw [mem_blk2]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    rw [e0']; omega
  | ⟨1, _⟩ =>
    show win0_2.index ⟨8 * (i 0).val + 7, hlt⟩ (1 : Fin 3) * 1 ≤ (i 1).val
      ∧ (i 1).val < win0_2.index ⟨8 * (i 0).val + 7, hlt⟩ (1 : Fin 3) * 1 + 1
    rw [e1]; omega
  | ⟨2, _⟩ =>
    show win0_2.index ⟨8 * (i 0).val + 7, hlt⟩ (2 : Fin 3) * 2048 ≤ (i 2).val
      ∧ (i 2).val < win0_2.index ⟨8 * (i 0).val + 7, hlt⟩ (2 : Fin 3) * 2048 + 2048
    rw [e2]; omega

/-- The array of row minima after the run. -/
theorem final2 : (dats m 0 c).arrAt 2 cfg0.N = G2 m c :=
  (dats m 0 c).arrAt_eq_of_cover 2 (G2 m c) (flushed2_eq m c) (cover2)

/-! ## The array of per-tile column minima -/

/-- Entry `(i, 0, k)`: the nearest squared distance from row `k` of y to tile `i` of x. -/
def G3 : S8x1x16384.Idx → EReal := fun y =>
  minOver fun r : Fin 2048 => D (X m c) (Y m c) (glob ⟨(y 0).val, (y 0).isLt⟩ r) ⟨(y 2).val, (y 2).isLt⟩

set_option maxRecDepth 200000 in
/-- What step `t` writes back is its tile of `G3`. -/
theorem flushed3_eq (t : Fin cfg0.N) (hf : (cfg0.win 3).flush t = true) :
    (dats m 0 c).flushed 3 t = ((cfg0.win 3).blk t).view.read (Elt Ideal) (G3 m c) := by
  have hN : t.val < 64 := lt_of_lt_of_eq t.isLt (show cfg0.N = 64 from N_0)
  obtain ⟨-, -, -, e0, e1, e2⟩ := idx_out t
  show (cfg0.win 3).cut (grid0.coords t) ((dats m 0 c).after 3 t) = _
  rw [after0_3]
  funext j
  rw [View.read_apply]
  show (outsAt0 m c t.val t.isLt).2 j = G3 m c (((cfg0.win 3).blk t).view.emb j)
  obtain ⟨u, w, cc, rfl⟩ : ∃ (u w : Fin 1) (cc : Fin 2048), j = ix3 u w cc := ⟨j 0, j 1, j 2, eq_ix3 j⟩
  obtain rfl : u = 0 := Subsingleton.elim _ _
  obtain rfl : w = 0 := Subsingleton.elim _ _
  rw [snd_eq m c t cc]
  unfold G3
  refine congrArg minOver (funext fun r => ?_)
  have ea : glob (tileI t.val) r = glob ⟨((((cfg0.win 3).blk t).view.emb (ix3 (0 : Fin 1) (0 : Fin 1) cc)) 0).val,
      ((((cfg0.win 3).blk t).view.emb (ix3 (0 : Fin 1) (0 : Fin 1) cc)) 0).isLt⟩ r := Fin.ext (by
    show 2048 * (t.val / 8 % 8) + r.val = 2048 * (win0_3.index t (0 : Fin 3) * 1 + 1 * 0) + r.val
    rw [e0]; omega)
  have eb : glob (tileJ t.val) cc = ⟨((((cfg0.win 3).blk t).view.emb (ix3 (0 : Fin 1) (0 : Fin 1) cc)) 2).val,
      ((((cfg0.win 3).blk t).view.emb (ix3 (0 : Fin 1) (0 : Fin 1) cc)) 2).isLt⟩ := Fin.ext (by
    show 2048 * (t.val % 8) + cc.val = win0_3.index t (2 : Fin 3) * 2048 + 1 * cc.val
    rw [e2]; omega)
  rw [ea, eb]

theorem mem_blk3 (t : Fin cfg0.N) (i : S8x1x16384.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Entry `(i, 0, k)` is written back at step `8 i + k / 2048`. -/
theorem cover3 (i : S8x1x16384.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 16384 := (i 2).isLt
  have hlt : 8 * (i 0).val + (i 2).val / 2048 < cfg0.N := by rw [show cfg0.N = 64 from N_0]; omega
  obtain ⟨-, -, -, e0, e1, e2⟩ := idx_out ⟨8 * (i 0).val + (i 2).val / 2048, hlt⟩
  have e0' : win0_3.index ⟨8 * (i 0).val + (i 2).val / 2048, hlt⟩ (0 : Fin 3) = (8 * (i 0).val + (i 2).val / 2048) / 8 := e0
  have e2' : win0_3.index ⟨8 * (i 0).val + (i 2).val / 2048, hlt⟩ (2 : Fin 3) = (8 * (i 0).val + (i 2).val / 2048) % 8 := e2
  refine ⟨⟨8 * (i 0).val + (i 2).val / 2048, hlt⟩, flush0_3 _, ?_⟩
  rw [mem_blk3]
  intro a
  match a with
  | ⟨0, _⟩ =>
    show win0_3.index ⟨8 * (i 0).val + (i 2).val / 2048, hlt⟩ (0 : Fin 3) * 1 ≤ (i 0).val
      ∧ (i 0).val < win0_3.index ⟨8 * (i 0).val + (i 2).val / 2048, hlt⟩ (0 : Fin 3) * 1 + 1
    rw [e0']; omega
  | ⟨1, _⟩ =>
    show win0_3.index ⟨8 * (i 0).val + (i 2).val / 2048, hlt⟩ (1 : Fin 3) * 1 ≤ (i 1).val
      ∧ (i 1).val < win0_3.index ⟨8 * (i 0).val + (i 2).val / 2048, hlt⟩ (1 : Fin 3) * 1 + 1
    rw [e1]; omega
  | ⟨2, _⟩ =>
    show win0_3.index ⟨8 * (i 0).val + (i 2).val / 2048, hlt⟩ (2 : Fin 3) * 2048 ≤ (i 2).val
      ∧ (i 2).val < win0_3.index ⟨8 * (i 0).val + (i 2).val / 2048, hlt⟩ (2 : Fin 3) * 2048 + 2048
    rw [e2']; omega

/-- The array of per-tile column minima after the run. -/
theorem final3 : (dats m 0 c).arrAt 3 cfg0.N = G3 m c :=
  (dats m 0 c).arrAt_eq_of_cover 3 (G3 m c) (flushed3_eq m c) (cover3)

end Cert.Chamfer.Kern

end
-- ==== Proof.Tail.lean ====
/-
  From the two arrays to the result.

  The array of row minima [8, 1, 2048] is flattened to 16384 entries: entry n is the nearest squared distance from row
  n of x to y.  The array [8, 1, 16384] of per-tile column minima is read as [8, 16384] and minimised over its 8 rows:
  entry k is the minimum over the 8 tiles, hence over all rows of x, of D n k.  Each vector then passes through
  v ↦ √(max(v, 0)), is summed from zero and divided by 16384, and the two means are added.
-/
import proofs.«112099_j2241972929056_2_alg».proof.Defs
import proofs.«112099_j2241972929056_2_alg».proof.Proof.Gen.KernelIdeal.Frame
import proofs.«112099_j2241972929056_2_alg».proof.Proof.Spec
import proofs.«112099_j2241972929056_2_alg».proof.Proof.Mean
import proofs.«112099_j2241972929056_2_alg».proof.Proof.Arrays
import Idealize.ShloMosaic.Lib.Pipeline.Value
import Idealize.ShloMosaic.Lib.StableHlo.Run
import Idealize.ShloMosaic.Lib.Tactic
import Idealize.ShloMosaic.PureOps.Reduce
import Idealize.ShloMosaic.PureOps.Ideal.Laws

noncomputable section

open Idealize.ShloMosaic Idealize.ShloMosaic.TcCoe Idealize.SL.Sem
open Idealize.ShloMosaic.Pipeline (Dat)

namespace Cert.Chamfer.Kern

open Cert.KernelIdeal Cert.KernelIdeal.Gen

open Idealize.ShloMosaic.ValueIdx Cert.Chamfer Idealize.ShloMosaic.StableHlo

variable (m : (ℓ : Loc nD τ sig) → Buf (Elt Ideal) ℓ) (c : Dev nD)

set_option maxRecDepth 200000 in
/-- The flattened array of row minima, clamped and rooted, is the vector of nearest distances from x to y. -/
theorem fwd_vec (A : S8x1x2048.Idx → Ideal .f32) (hA : A = G2 m c) :
    Host.sqrt (F := Ideal) (maximumf (shapeCast S16384 A shapeCasts_S8x1x2048_S16384)
        (broadcastInDim S16384 ![] bcast_S_S16384 (constant (F := Ideal) S_ .f32 0x00000000#32)))
      = fun j => rootClamp (fwdSq (X m c) (Y m c) (j 0)) := by
  subst hA
  funext j
  obtain ⟨n, rfl⟩ : ∃ n : Fin 16384, j = ix1 n := ⟨j 0, eq_ix1 j⟩
  have hn := n.isLt
  show Ideal.sqrt (max (shapeCast S16384 (G2 m c) shapeCasts_S8x1x2048_S16384 (ix1 n)) (Ideal.ofBits .f32 0x00000000#32))
    = rootClamp (fwdSq (X m c) (Y m c) n)
  rw [shapeCast_apply (G2 m c) shapeCasts_S8x1x2048_S16384 (ix1 n)
    (ix3 (⟨n.val / 2048, by omega⟩ : Fin 8) (0 : Fin 1) (⟨n.val % 2048, Nat.mod_lt _ (by norm_num)⟩ : Fin 2048)) (by
      rw [Shape.rowMajor_val_three, Shape.rowMajor_val_one]
      show (n.val / 2048 * 1 + 0) * 2048 + n.val % 2048 = n.val
      omega), Ideal.ofBits_zero_f32]
  unfold rootClamp G2
  refine congrArg (fun v => Ideal.sqrt (max (fwdSq (X m c) (Y m c) v) 0)) (Fin.ext ?_)
  show 2048 * (n.val / 2048) + n.val % 2048 = n.val
  omega

/-- The minimum over the 8 tiles of x of the per-tile minima is the minimum over all rows of x. -/
theorem min_tiles (k : Fin 16384) :
    (minOver fun i : Fin 8 => minOver fun r : Fin 2048 => D (X m c) (Y m c) (glob i r) k) = bwdSq (X m c) (Y m c) k := by
  unfold bwdSq
  refine eq_minOver _ _ fun b => ?_
  rw [le_minOver, ← forall_glob]
  exact forall_congr' fun i => le_minOver _ _

set_option maxRecDepth 200000 in
/-- The array of per-tile column minima, minimised over the tiles, clamped and rooted, is the vector of nearest
    distances from y to x. -/
theorem bwd_vec (A : S8x1x16384.Idx → Ideal .f32) (hA : A = G3 m c) :
    Host.sqrt (F := Ideal) (maximumf
        (Host.reduce FloatOps.minimumf (shapeCast S8x16384 A shapeCasts_S8x1x16384_S8x16384)
          (constant (F := Ideal) S_ .f32 0x7F800000#32) reducesTo_S8x16384_S16384_d0 h_S_)
        (broadcastInDim S16384 ![] bcast_S_S16384 (constant (F := Ideal) S_ .f32 0x00000000#32)))
      = fun j => rootClamp (bwdSq (X m c) (Y m c) (j 0)) := by
  subst hA
  funext j
  obtain ⟨k, rfl⟩ : ∃ k : Fin 16384, j = ix1 k := ⟨j 0, eq_ix1 j⟩
  show Ideal.sqrt (max (Host.reduce (FloatOps.minimumf (F := Ideal) (φ := .f32)) (shapeCast S8x16384 (G3 m c) shapeCasts_S8x1x16384_S8x16384)
      (constant (F := Ideal) S_ .f32 0x7F800000#32) reducesTo_S8x16384_S16384_d0 h_S_ (ix1 k)) (Ideal.ofBits .f32 0x00000000#32))
    = rootClamp (bwdSq (X m c) (Y m c) k)
  have hred : S8x16384.Reduces [0] S16384 := by decide
  rw [Host.reduce_eq_fold_single (FloatOps.minimumf (F := Ideal) (φ := .f32)) _ _ reducesTo_S8x16384_S16384_d0 hred h_S_ (ix1 k), Ideal.ofBits_zero_f32,
    ← min_tiles m c k]
  unfold rootClamp minOver
  refine congrArg (fun v => Ideal.sqrt (max v 0)) ?_
  show Finset.fold min (Ideal.ofBits .f32 0x7F800000#32)
      (shapeCast S8x16384 (G3 m c) shapeCasts_S8x1x16384_S8x16384 ∘ hred.lift (ix1 k)) (Finset.univ : Finset (Fin 8))
    = Finset.fold min ⊤ (fun i : Fin 8 => Finset.fold min ⊤ (fun r : Fin 2048 => D (X m c) (Y m c) (glob i r) k) Finset.univ) Finset.univ
  rw [ofBits_top]
  congr 1
  refine funext fun (i : Fin 8) => ?_
  have hl : hred.lift (ix1 k) i = ix2 i k := funext fun a => Fin.ext (by match a with | ⟨0, _⟩ => rfl | ⟨1, _⟩ => rfl)
  show shapeCast S8x16384 (G3 m c) shapeCasts_S8x1x16384_S8x16384 (hred.lift (ix1 k) i) = _
  rw [hl, shapeCast_apply (G3 m c) shapeCasts_S8x1x16384_S8x16384 (ix2 i k) (ix3 i (0 : Fin 1) k) (by
    rw [Shape.rowMajor_val_three, Shape.rowMajor_val_two]
    show (i.val * 1 + 0) * 16384 + k.val = i.val * 16384 + k.val
    omega)]
  rfl

/-- The result buffer after the host's last stretch is the chamfer value of the two clouds. -/
theorem tail_eq : Pipeline.afterTail₀ cfgs (dats m) 0 (V0 m) [hostOps1] c main_v14
    = chamfer reducesTo_S16384_S_d0 h_S_ (X m c) (Y m c) := by
  have w2 : Pipeline.withArrays (cfgs 0).spec c (V0 m c) (fun w => (dats m 0 c).arrAt w (cfgs 0).N) (Proc.devRef .tc main_v0_0)
      = G2 m c := (Pipeline.withArrays_arr spec0 launch0.win.arr_inj c _ _ 2).trans (final2 m c)
  have w3 : Pipeline.withArrays (cfgs 0).spec c (V0 m c) (fun w => (dats m 0 c).arrAt w (cfgs 0).N) (Proc.devRef .tc main_v0_1)
      = G3 m c := (Pipeline.withArrays_arr spec0 launch0.win.arr_inj c _ _ 3).trans (final3 m c)
  unfold Pipeline.afterTail₀
  show StableHlo.after hostOps1 _ (Proc.devRef .tc main_v14) = _
  after_results
  unfold chamfer meanPair
  rw [← fwd_vec m c _ w2, ← bwd_vec m c _ w3]
  rfl

variable (ρ : Dev nD → PrngReg)

/-- The idealized kernel's run, read: the result at the chamfer value of its arguments, the arguments unchanged. -/
theorem run : θ_run defs (onTc (τ := τ) (main (F := Ideal))) ⟨m, fun _ => 0, ρ⟩ fun r => ∀ c : Dev nD,
      r.2.mem ((c.tc : Thread nD τ).loc main_v14)
        = chamfer reducesTo_S16384_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 (Pipeline.mem_restRefs_of _ (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Kern

end
-- ==== Proof.RefSide.lean ====
/-
  The reference's two families of nearest distances, read as mathematics.

  The reference builds the 16384 × 16384 matrix whose entry (n, m) is √(max(|x n|² + |y m|² − 2 · x n · y m, 0)),
  the squared norms and the inner product each a sum over the three coordinates started from 0, and takes the minimum of
  every row and of every column, each started from +∞.  Entry (n, m) is the clamped root of the expanded squared
  distance; a minimum over one axis started from +∞ is the finite minimum from ⊤ over that axis's coordinates.
-/
import proofs.«112099_j2241972929056_2_alg».proof.Defs
import proofs.«112099_j2241972929056_2_alg».proof.Proof.Gen.ReferenceIdeal.Run
import proofs.«112099_j2241972929056_2_alg».proof.Proof.Gen.ReferenceIdeal.Read
import proofs.«112099_j2241972929056_2_alg».proof.Proof.Spec
import Idealize.ShloMosaic.PureOps.Reduce

noncomputable section

namespace Cert.Chamfer.Ref

open Cert.ReferenceIdeal Cert.ReferenceIdeal.Gen Cert.ReferenceIdeal.Read Idealize.ShloMosaic
  Idealize.ShloMosaic.ValueIdx

/-! ## Where entry (n, m) reads the two clouds -/

/-- The row norm of the first cloud at entry (n, m) reads row n, coordinate k. -/
theorem idx_left (n m : Fin 16384) (k : Fin 3) :
    idx_main_v1 (idx_main_v2 (idx_main_v7 (ix2 n m))) k = ix2 n k :=
  funext fun a => Fin.ext (by match a with | ⟨0, _⟩ => rfl | ⟨1, _⟩ => rfl)

/-- The row norm of the second cloud at entry (n, m) reads row m, coordinate k. -/
theorem idx_right (n m : Fin 16384) (k : Fin 3) :
    idx_main_v4 (idx_main_v5 (idx_main_v6 (idx_main_v8 (ix2 n m)))) k = ix2 m k :=
  funext fun a => Fin.ext (by match a with | ⟨0, _⟩ => rfl | ⟨1, _⟩ => rfl)

/-- The inner product at entry (n, m) reads row n of the first cloud at coordinate k … -/
theorem idx_dot_left (n m : Fin 16384) (k : Fin 3) : lidx_main_v11 (ix2 n m) k = ix2 n k :=
  funext fun a => Fin.ext (by match a with | ⟨0, _⟩ => rfl | ⟨1, _⟩ => rfl)

/-- … and row m of the second cloud at coordinate k. -/
theorem idx_dot_right (n m : Fin 16384) (k : Fin 3) : idx_main_v10 (ridx_main_v11 (ix2 n m) k) = ix2 m k :=
  funext fun a => Fin.ext (by match a with | ⟨0, _⟩ => rfl | ⟨1, _⟩ => rfl)

/-! ## One entry of the matrix -/

/-- Entry (n, m) of the matrix the reference reduces: the clamped root of the expanded squared distance between row n
    of the first cloud and row m of the second, the sums started from 0 and the factor 2. -/
theorem v17_at (x0 x1 : Pts) (n m : Fin 16384) :
    val_main_v17 (F := Ideal) x0 x1 (ix2 n m) = rootClamp (DX 0 ((2 : ℝ) : EReal) x0 x1 n m) := by
  simp only [val_main_v17_apply, val_main_v16_apply, val_main_v15_apply, val_main_cst_2_apply, val_main_v14_apply,
    val_main_v13_apply, val_main_v12_apply, val_main_cst_1_apply, val_main_v11_apply, val_main_v10_apply,
    val_main_v9_apply, val_main_v8_apply, val_main_v7_apply, val_main_v6_apply, val_main_v5_apply, val_main_v4_apply,
    val_main_v3_apply, val_main_cst_0_apply, val_main_v2_apply, val_main_v1_apply, val_main_v0_apply,
    val_main_cst_apply, idx_left, idx_right, idx_dot_left, idx_dot_right, Fin.sum_univ_three,
    Ideal.hostUnary_sqrt_def, Ideal.maximumf_def, Ideal.subf_def, Ideal.addf_def, Ideal.mulf_def, Ideal.ofBits_def,
    Ideal.ofBits_zero_f32, ofBits_two]
  unfold rootClamp DX dist2X
  rfl

/-! ## The two minima -/

/-- The row of the matrix over result index j, coordinate k: entry (j, k). -/
theorem lift_row (h : S16384x16384.Reduces [1] S16384) (j : S16384.Idx) (k : Fin 16384) :
    h.lift j k = ix2 (j 0) k :=
  funext fun a => Fin.ext (by match a with | ⟨0, _⟩ => rfl | ⟨1, _⟩ => rfl)

/-- The column of the matrix over result index j, coordinate k: entry (k, j). -/
theorem lift_col (h : S16384x16384.Reduces [0] S16384) (j : S16384.Idx) (k : Fin 16384) :
    h.lift j k = ix2 k (j 0) :=
  funext fun a => Fin.ext (by match a with | ⟨0, _⟩ => rfl | ⟨1, _⟩ => rfl)

/-- A fold of the floating minimum over a finite index set, from a value that is +∞, of a family that is g entry by
    entry, is the finite minimum of g from ⊤. -/
theorem fold_minimumf_top {ι : Type} [Fintype ι] (f : ι → Ideal .f32) (g : ι → EReal) (b : Ideal .f32)
    (hb : b = (⊤ : EReal)) (hfg : ∀ k, f k = g k) :
    Finset.univ.fold (FloatOps.minimumf (F := Ideal) (φ := .f32)) b f = minOver g := by
  obtain rfl : f = g := funext hfg
  subst hb
  rfl

/-- The reference's row minima: for each row n of the first cloud the least clamped root over the second cloud's rows. -/
theorem ref_fwd (x0 x1 : Pts) :
    val_main_v18 (F := Ideal) x0 x1
      = fun j => minOver fun m : Fin 16384 => rootClamp (DX 0 ((2 : ℝ) : EReal) x0 x1 (j 0) m) := by
  funext j
  have h : S16384x16384.Reduces [1] S16384 := by decide
  refine (Host.reduce_eq_fold_single (FloatOps.minimumf (F := Ideal) (φ := .f32)) (val_main_v17 (F := Ideal) x0 x1)
    (val_main_cst_3 (F := Ideal)) reducesTo_S16384x16384_S16384_d1 h h_S_ j).trans ?_
  exact fold_minimumf_top _ _ _ ofBits_top fun k => by
    show val_main_v17 (F := Ideal) x0 x1 (h.lift j k) = _
    rw [lift_row h j k]
    exact v17_at x0 x1 (j 0) k

/-- The reference's column minima: for each row m of the second cloud the least clamped root over the first cloud's rows. -/
theorem ref_bwd (x0 x1 : Pts) :
    val_main_v19 (F := Ideal) x0 x1
      = fun j => minOver fun n : Fin 16384 => rootClamp (DX 0 ((2 : ℝ) : EReal) x0 x1 n (j 0)) := by
  funext j
  have h : S16384x16384.Reduces [0] S16384 := by decide
  refine (Host.reduce_eq_fold_single (FloatOps.minimumf (F := Ideal) (φ := .f32)) (val_main_v17 (F := Ideal) x0 x1)
    (val_main_cst_4 (F := Ideal)) reducesTo_S16384x16384_S16384_d0 h h_S_ j).trans ?_
  exact fold_minimumf_top _ _ _ ofBits_top fun k => by
    show val_main_v17 (F := Ideal) x0 x1 (h.lift j k) = _
    rw [lift_col h j k]
    exact v17_at x0 x1 k (j 0)

end Cert.Chamfer.Ref

end
-- ==== Proof.RefFinal.lean ====
/-
  The reference's result, read as mathematics.

  After the two families of minima the reference sums each from zero, divides by 16384 and adds the two means.  The
  minima are the least clamped roots of the expanded squared distances; on real entries the expansion is the sum of
  squared differences, and the clamped root commutes with a finite minimum from ⊤, so each minimum is the clamped root
  of the nearest squared distance, and the reference's result is the chamfer value of the two clouds.
-/
import proofs.«112099_j2241972929056_2_alg».proof.Proof.RefSide
import proofs.«112099_j2241972929056_2_alg».proof.Proof.Mean

noncomputable section

namespace Cert.Chamfer.Ref

open Cert.ReferenceIdeal Cert.ReferenceIdeal.Gen Cert.ReferenceIdeal.Read Idealize.ShloMosaic Idealize.ShloMosaic.TcCoe
  Idealize.SL.Sem Idealize.ShloMosaic.StableHlo

/-- The reference's result is the sum of the two means of its row minima and its column minima. -/
theorem v24_eq_meanPair (hr : V16k.ReducesTo [0] S0) (h0 : 0 < S0.numel) (x0 x1 : Pts) :
    val_main_v24 (F := Ideal) x0 x1
      = meanPair hr h0 (val_main_v18 (F := Ideal) x0 x1) (val_main_v19 (F := Ideal) x0 x1) := rfl

/-- On clouds of real entries the reference's result is the chamfer value. -/
theorem ref_result (hr : V16k.ReducesTo [0] S0) (h0 : 0 < S0.numel) (x0 x1 : Pts) (hx : AllReal x0) (hy : AllReal x1) :
    val_main_v24 (F := Ideal) x0 x1 = chamfer hr h0 x0 x1 := by
  rw [v24_eq_meanPair hr h0, ref_fwd, ref_bwd]
  unfold chamfer
  have ef : (fun j : V16k.Idx => minOver fun m : Fin 16384 => rootClamp (DX 0 ((2 : ℝ) : EReal) x0 x1 (j 0) m))
      = fun j => rootClamp (fwdSq x0 x1 (j 0)) :=
    funext fun j => by
      unfold fwdSq
      rw [rootClamp_minOver]
      exact congrArg minOver (funext fun m => congrArg rootClamp (DX_eq x0 x1 hx hy (j 0) m))
  have eb : (fun j : V16k.Idx => minOver fun n : Fin 16384 => rootClamp (DX 0 ((2 : ℝ) : EReal) x0 x1 n (j 0)))
      = fun j => rootClamp (bwdSq x0 x1 (j 0)) :=
    funext fun j => by
      unfold bwdSq
      rw [rootClamp_minOver]
      exact congrArg minOver (funext fun n => congrArg rootClamp (DX_eq x0 x1 hx hy n (j 0)))
  exact congrArg₂ (meanPair hr h0) ef eb

/-- The reference's run, re-posted: from clouds of real entries every weakly fair execution ends with the result at the
    chamfer value of the two clouds, the clouds unchanged. -/
theorem run (hr : V16k.ReducesTo [0] S0) (h0 : 0 < S0.numel) (m' : (ℓ : Loc nD τ sig) → Buf (Elt Ideal) ℓ)
    (ρ' : Dev nD → PrngReg)
    (hx : ∀ c : Dev nD, AllReal (m' ((c.tc : Thread nD τ).loc main_arg0)))
    (hy : ∀ c : Dev nD, AllReal (m' ((c.tc : Thread nD τ).loc main_arg1))) :
    θ_run defs (onTc (τ := τ) (main (F := Ideal))) ⟨m', fun _ => 0, ρ'⟩ fun r => ∀ c : Dev nD,
      r.2.mem ((c.tc : Thread nD τ).loc main_v24)
          = chamfer hr h0 (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ h c => ⟨(h c).1.trans ((val_main_v24_eq (F := Ideal) _ _).trans
      (ref_result hr h0 _ _ (hx c) (hy c))), (h c).2⟩)
    (Cert.ReferenceIdeal.Value.run (F := Ideal) m' ρ')

end Cert.Chamfer.Ref

end
-- ==== Proof.Finite.lean ====
/-
  Finite inputs are real numbers.

  The precondition says of both clouds that every entry x has |x| < +∞, where |x| = max(x, −x) on the extended reals.
  Both infinities have |x| = +∞, so an entry that passes is a real number.  The test over a whole cloud is a
  conjunction folded over all its entries, and the two clouds' tests are joined by a last conjunction; a conjunction
  that came out true had only true members.
-/
import proofs.«112099_j2241972929056_2_alg».proof.Defs
import proofs.«112099_j2241972929056_2_alg».proof.Proof.Spec
import Idealize.ShloMosaic.Lib.ReduceAll
import Idealize.ShloMosaic.PureOps.Ideal.Laws

noncomputable section

namespace Cert.Chamfer

open Idealize.ShloMosaic

/-- An extended real with max(x, −x) strictly below +∞ is a real number: at −∞ and at +∞ that maximum is +∞. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison "less than" of two extended reals came out true exactly when the first is below the second. -/
theorem cmp_olt_eq_one (x y : EReal) : Ideal.cmp .olt x y = 1#1 ↔ x < y := by
  unfold Ideal.cmp
  by_cases hxy : x < y <;> simp [hxy]

/-- The rank-zero index set has one element. -/
instance subsingleton_rankZeroIdx : Subsingleton Cert.Pre_finite_inputs.S_.Idx := ⟨fun a b => funext fun d => d.elim0⟩

/-- One entry's test, |x| < +∞ against the bit pattern of +∞, gives a real number. -/
theorem real_of_test (x : Ideal .f32)
    (h : FloatOps.cmpf .olt (FloatOps.hostAbsf x) (FloatOps.ofBits (F := Ideal) .f32 0x7F800000#32) = 1#1) :
    ∃ r : ℝ, (x : EReal) = (r : EReal) := by
  rw [Ideal.cmpf_def, Ideal.hostAbsf_def, Ideal.absf_def, Ideal.ofBits_def, ofBits_top, cmp_olt_eq_one] at h
  exact real_of_abs_lt_top x h

/-- The precondition gives: every entry of both clouds is a real number. -/
theorem allReal_of_pre [Cert.Pre_finite_inputs.Facts] (a b : Pts)
    (h : Cert.Pre_finite_inputs.fn (F := Ideal) a b = fun _ => 1#1) : AllReal a ∧ AllReal b := by
  have h0 := congrFun h ValueIdx.ix0
  dsimp only [Cert.Pre_finite_inputs.fn] at h0
  obtain ⟨ha, hb⟩ := IntOp.andi_eq_one.1 h0
  exact ⟨fun i => real_of_test (a i) (Host.reduce_andi_all _ _ _ _ _ ha i),
    fun i => real_of_test (b i) (Host.reduce_andi_all _ _ _ _ _ hb i)⟩

end Cert.Chamfer

end
-- ==== Proof.lean ====
/- The proof of `Cert.Claim`.

   Two point clouds x, y of 16384 points in three dimensions.  Both programs compute
       mean_n √(max(min_m D n m, 0)) + mean_m √(max(min_n D n m, 0)),   D n m = Σ_d (x n d − y m d)².
   The kernel sweeps an 8 × 8 grid of pairs of 2048-row tiles: per pair it forms the tile of squared distances as a sum
   of three squared differences, keeps a running row minimum along each sweep and writes the pair's column minima; the
   host then flattens, takes the minimum over the 8 tiles, clamps, roots and averages (Proof/Pieces, Payload, Accum,
   Arrays, Tail).  The reference expands the square as |x|² + |y|² − 2 x·y, clamps and roots every entry and then takes
   row and column minima (Proof/RefSide, RefFinal).  On real entries — which the precondition gives (Proof/Finite) —
   the expansion is exact, and v ↦ √(max(v, 0)) is monotone and fixes +∞, so it commutes with the minima
   (Proof/Spec): the two results are the same extended real.  The three frames are the generated runs; the ideal
   pass rewrote nothing, so the idealization claim is trivial. -/
import proofs.«112099_j2241972929056_2_alg».proof.Defs
import proofs.«112099_j2241972929056_2_alg».proof.Proof.Gen.Kernel
import proofs.«112099_j2241972929056_2_alg».proof.Proof.Gen.Kernel.Frame
import proofs.«112099_j2241972929056_2_alg».proof.Proof.Gen.KernelIdeal
import proofs.«112099_j2241972929056_2_alg».proof.Proof.Gen.KernelIdeal.Frame
import proofs.«112099_j2241972929056_2_alg».proof.Proof.Gen.ReferenceIdeal
import proofs.«112099_j2241972929056_2_alg».proof.Proof.Gen.ReferenceIdeal.Run
import proofs.«112099_j2241972929056_2_alg».proof.Proof.Gen.Pre_finite_inputs
import proofs.«112099_j2241972929056_2_alg».proof.Proof.Tail
import proofs.«112099_j2241972929056_2_alg».proof.Proof.RefFinal
import proofs.«112099_j2241972929056_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the chamfer value of the (agreeing, real-valued) argument arrays. -/
theorem algebraic : Cert.algebraic_KernelIdeal_ReferenceIdeal := by
  intro m ρ m' ρ' hpre hagree
  have hfin := fun c => Cert.Chamfer.allReal_of_pre _ _ (hpre c)
  refine ⟨fun c => Cert.Chamfer.chamfer Cert.KernelIdeal.Facts₀.reducesTo_S16384_S_d0 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Chamfer.Kern.run m ρ, ?_⟩
  refine (θ_run Cert.ReferenceIdeal.defs _ _).mono (fun _ h c => ⟨(h c).1.trans ?_, (h c).2⟩)
    (Cert.Chamfer.Ref.run Cert.KernelIdeal.Facts₀.reducesTo_S16384_S_d0 Cert.KernelIdeal.Facts₀.h_S_ m' ρ'
      (fun c => by rw [(hagree c).1]; exact (hfin c).1) (fun c => by rw [(hagree c).2]; exact (hfin c).2))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
